-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16777216x2 : Shape := ⟨2, ![16777216, 2]⟩
abbrev S_ : Shape := ⟨0, ![]⟩

class Facts : Prop where
  bcast_S_S16777216x2 : S_.BroadcastsInDim S16777216x2 (![] : Fin 0 → Fin S16777216x2.rank)
  reducesTo_S16777216x2_S_d0_1 : S16777216x2.ReducesTo [0, 1] S_
  h_S_ : 0 < S_.numel

variable [Facts]

def fn {F : FTy → Type} [FloatOps F] (main_arg0 : FVec F S16777216x2 .f32) : IVec S_ 1 :=
  let main_v0 : FVec F S16777216x2 .f32 := Host.absf main_arg0
  let main_cst : FVec F S_ .f32 := constant S_ .f32 0x7F800000#32
  let main_v1 : FVec F S16777216x2 .f32 := broadcastInDim S16777216x2 ![] bcast_S_S16777216x2 main_cst
  let main_v2 : IVec S16777216x2 1 := cmpf .olt main_v0 main_v1
  let main_c : IVec S_ 1 := constantI S_ 1 1#1
  let main_v3 : IVec S_ 1 := (fun x v => Host.reduce IntOp.andi x v reducesTo_S16777216x2_S_d0_1 h_S_) main_v2 main_c
  main_v3
-- ==== Kernel.lean ====
abbrev S16777216x2 : Shape := ⟨2, ![16777216, 2]⟩
abbrev S16777216x3 : Shape := ⟨2, ![16777216, 3]⟩
abbrev S8192x2 : Shape := ⟨2, ![8192, 2]⟩
abbrev S8192x3 : Shape := ⟨2, ![8192, 3]⟩
abbrev S8192x1 : Shape := ⟨2, ![8192, 1]⟩
abbrev S8192 : Shape := ⟨1, ![8192]⟩

abbrev nBuf : Space → Nat
  | .hbm => 2
  | .vmem => 4
  | .smem => 0
  | _ => 0

abbrev bufTy : (tb : Table) → Fin (tcTables nBuf tb) → BufTy
  | .hbm, ⟨0, _⟩ => ⟨S16777216x2, .f32⟩
  | .hbm, ⟨1, _⟩ => ⟨S16777216x3, .f32⟩
  | .local _ .vmem, ⟨0, _⟩ => ⟨S8192x2, .f32⟩
  | .local _ .vmem, ⟨1, _⟩ => ⟨S8192x2, .f32⟩
  | .local _ .vmem, ⟨2, _⟩ => ⟨S8192x3, .f32⟩
  | .local _ .vmem, ⟨3, _⟩ => ⟨S8192x3, .f32⟩
  | _, _ => ⟨S16777216x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![2048], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S8192x2_S8192x2_0_0 : ∀ a, (![0, 0] : Fin 2 → Nat) a + S8192x2.size a ≤ S8192x2.size a
  h_S8192x2 : 0 < S8192x2.numel
  slices_S8192x2_o0_0_S8192x1 : S8192x2.Slices ![0, 0] S8192x1
  shapeCasts_S8192x1_S8192 : S8192x1.ShapeCasts S8192
  shapeCasts_S8192_S8192x1 : S8192.ShapeCasts S8192x1
  concatenates_S8192x1_S8192x1_S8192x1_S8192x3_d1 : Shape.Concatenates [S8192x1, S8192x1, S8192x1] S8192x3 1
  inb_S8192x3_S8192x3_0_0 : ∀ a, (![0, 0] : Fin 2 → Nat) a + S8192x3.size a ≤ S8192x3.size a
  h_S8192x3 : 0 < S8192x3.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x2.size a ≤ S16777216x2.size a
  hwx0_0 : ∀ i : grid0.Coords, EltTy.bits .f32 = 32 ∨ (Rect.block (s := S16777216x2) S8192x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x3.size a ≤ S16777216x3.size a
  hwx0_1 : ∀ i : grid0.Coords, EltTy.bits .f32 = 32 ∨ (Rect.block (s := S16777216x3) S8192x3.size (cc0_transform_1 i) (hinb0_1 i)).WholeWords (EltTy.packing .f32)

variable [Facts₀]

abbrev win0_0 : Pipeline.Window sig grid0 :=
  Pipeline.Window.ofSpec (Memref.whole main_arg0) S8192x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x3.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S16777216x2 : Shape := ⟨2, ![16777216, 2]⟩
abbrev S16777216x1 : Shape := ⟨2, ![16777216, 1]⟩
abbrev S16777216 : Shape := ⟨1, ![16777216]⟩
abbrev S_ : Shape := ⟨0, ![]⟩
abbrev S16777216x3 : Shape := ⟨2, ![16777216, 3]⟩

abbrev nBuf : Space → Nat
  | .hbm => 40
  | .vmem => 0
  | .smem => 0
  | _ => 0

abbrev bufTy : (tb : Table) → Fin (tcTables nBuf tb) → BufTy
  | .hbm, ⟨0, _⟩ => ⟨S16777216x2, .f32⟩
  | .hbm, ⟨1, _⟩ => ⟨S16777216x1, .f32⟩
  | .hbm, ⟨2, _⟩ => ⟨S16777216, .f32⟩
  | .hbm, ⟨3, _⟩ => ⟨S_, .f32⟩
  | .hbm, ⟨4, _⟩ => ⟨S16777216, .f32⟩
  | .hbm, ⟨5, _⟩ => ⟨S_, .f32⟩
  | .hbm, ⟨6, _⟩ => ⟨S16777216, .f32⟩
  | .hbm, ⟨7, _⟩ => ⟨S16777216, .f32⟩
  | .hbm, ⟨8, _⟩ => ⟨S_, .f32⟩
  | .hbm, ⟨9, _⟩ => ⟨S16777216, .f32⟩
  | .hbm, ⟨10, _⟩ => ⟨S16777216, .f32⟩
  | .hbm, ⟨11, _⟩ => ⟨S_, .f32⟩
  | .hbm, ⟨12, _⟩ => ⟨S16777216, .f32⟩
  | .hbm, ⟨13, _⟩ => ⟨S16777216, .f32⟩
  | .hbm, ⟨14, _⟩ => ⟨S_, .f32⟩
  | .hbm, ⟨15, _⟩ => ⟨S16777216, .f32⟩
  | .hbm, ⟨16, _⟩ => ⟨S16777216, .f32⟩
  | .hbm, ⟨17, _⟩ => ⟨S16777216x1, .f32⟩
  | .hbm, ⟨18, _⟩ => ⟨S16777216x1, .f32⟩
  | .hbm, ⟨19, _⟩ => ⟨S16777216x1, .f32⟩
  | .hbm, ⟨20, _⟩ => ⟨S16777216x3, .f32⟩
  | .hbm, ⟨21, _⟩ => ⟨S_, .f32⟩
  | .hbm, ⟨22, _⟩ => ⟨S16777216, .f32⟩
  | .hbm, ⟨23, _⟩ => ⟨S16777216, .f32⟩
  | .hbm, ⟨24, _⟩ => ⟨S_, .f32⟩
  | .hbm, ⟨25, _⟩ => ⟨S16777216, .f32⟩
  | .hbm, ⟨26, _⟩ => ⟨S16777216, .f32⟩
  | .hbm, ⟨27, _⟩ => ⟨S_, .f32⟩
  | .hbm, ⟨28, _⟩ => ⟨S16777216, .f32⟩
  | .hbm, ⟨29, _⟩ => ⟨S16777216, .f32⟩
  | .hbm, ⟨30, _⟩ => ⟨S16777216x1, .f32⟩
  | .hbm, ⟨31, _⟩ => ⟨S16777216x1, .f32⟩
  | .hbm, ⟨32, _⟩ => ⟨S16777216x1, .f32⟩
  | .hbm, ⟨33, _⟩ => ⟨S16777216x3, .f32⟩
  | .hbm, ⟨34, _⟩ => ⟨S_, .f32⟩
  | .hbm, ⟨35, _⟩ => ⟨S16777216, .f32⟩
  | .hbm, ⟨36, _⟩ => ⟨S16777216, .i1⟩
  | .hbm, ⟨37, _⟩ => ⟨S16777216x1, .i1⟩
  | .hbm, ⟨38, _⟩ => ⟨S16777216x3, .i1⟩
  | .hbm, ⟨39, _⟩ => ⟨S16777216x3, .f32⟩
  | _, _ => ⟨S16777216x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_cst : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_cst_1 : Ref sig .tc := ⟨.hbm, 8, rfl⟩
abbrev main_v5 : Ref sig .tc := ⟨.hbm, 9, rfl⟩
abbrev main_v6 : Ref sig .tc := ⟨.hbm, 10, rfl⟩
abbrev main_cst_2 : Ref sig .tc := ⟨.hbm, 11, rfl⟩
abbrev main_v7 : Ref sig .tc := ⟨.hbm, 12, rfl⟩
abbrev main_v8 : Ref sig .tc := ⟨.hbm, 13, rfl⟩
abbrev main_cst_3 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_4 : Ref sig .tc := ⟨.hbm, 21, rfl⟩
abbrev main_v15 : Ref sig .tc := ⟨.hbm, 22, rfl⟩
abbrev main_v16 : Ref sig .tc := ⟨.hbm, 23, rfl⟩
abbrev main_cst_5 : Ref sig .tc := ⟨.hbm, 24, rfl⟩
abbrev main_v17 : Ref sig .tc := ⟨.hbm, 25, rfl⟩
abbrev main_v18 : Ref sig .tc := ⟨.hbm, 26, rfl⟩
abbrev main_cst_6 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_7 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_call0_v0 : Ref sig .tc := ⟨.hbm, 38, rfl⟩
abbrev main_v28 : Ref sig .tc := ⟨.hbm, 39, rfl⟩

abbrev nD : Nat := 1
abbrev τ : Topo := Topo.v7x

variable {F : FTy → Type} [FloatOps F]

class Facts₀ : Prop where
  slices_S16777216x2_S16777216x1_0_0 : S16777216x2.Slices ![0, 0] S16777216x1
  shapeCasts_S16777216x1_S16777216 : S16777216x1.ShapeCasts S16777216
  bcast_S_S16777216 : S_.BroadcastsInDim S16777216 (![] : Fin 0 → Fin S16777216.rank)
  bcast_S16777216_S16777216x1_0 : S16777216.BroadcastsInDim S16777216x1 (![0] : Fin 1 → Fin S16777216x1.rank)
  concatenates_S16777216x1_S16777216x1_S16777216x1_S16777216x3_d1 : Shape.Concatenates [S16777216x1, S16777216x1, S16777216x1] S16777216x3 1
  bcast_S16777216x1_S16777216x3_0_1 : S16777216x1.BroadcastsInDim S16777216x3 (![0, 1] : Fin 2 → Fin S16777216x3.rank)

variable [Facts₀]

class Facts : Prop extends Facts₀ where

variable [Facts]
-- ==== Proof.LibColumns.lean ====
/-
  Columns of a two-dimensional array, read at an index given by its coordinates.

  A vector of R entries and the R×1 column with the same entries are the same data in row-major order:
  entry r of the vector is entry (r, 0) of the column, whichever way the reshape goes. Three R×1 columns
  joined side by side give an R×3 array whose entry (r, k) is entry (r, 0) of column k. The three facts
  hold for any element type and any number of rows R.
-/
import Idealize.ShloMosaic.Lib.Pipeline.Value
import Idealize.ShloMosaic.Lib.ValueIdx

noncomputable section

namespace Cert.Lib.Columns

open Idealize.ShloMosaic Idealize.ShloMosaic.ValueIdx

variable {α : Type} {R : Nat}

/-- A vector of R entries reshaped into an R×1 column: the column's entry (r, 0) is the vector's entry r
    (row-major position r·1 + 0 = r on both sides). -/
theorem column_of_vector_apply (v : (⟨1, ![R]⟩ : Shape).Idx → α)
    (h : (⟨1, ![R]⟩ : Shape).ShapeCasts ⟨2, ![R, 1]⟩) (r : Fin R) (z : Fin 1) :
    shapeCast ⟨2, ![R, 1]⟩ v h (ix2 r z) = v (ix1 r) :=
  shapeCast_apply v h (ix2 r z) (ix1 r) (by
    rw [Shape.rowMajor_val_one, Shape.rowMajor_val_two]
    have hz : z.val < 1 := z.isLt
    show r.val = r.val * 1 + z.val
    omega)

/-- An R×1 column reshaped into a vector of R entries: the vector's entry r is the column's entry (r, 0). -/
theorem vector_of_column_apply (w : (⟨2, ![R, 1]⟩ : Shape).Idx → α)
    (h : (⟨2, ![R, 1]⟩ : Shape).ShapeCasts ⟨1, ![R]⟩) (r : Fin R) :
    shapeCast ⟨1, ![R]⟩ w h (ix1 r) = w (ix2 r 0) :=
  shapeCast_apply w h (ix1 r) (ix2 r 0) (by
    rw [Shape.rowMajor_val_two, Shape.rowMajor_val_one]
    show r.val * 1 + 0 = r.val
    omega)

/-- Three R×1 columns joined side by side along the second axis: entry (r, k) of the R×3 result is
    entry (r, 0) of column k, because every column is one entry wide, so the second coordinate of the
    result is the number of the column. -/
theorem join3_apply (f : Fin 3 → ((⟨2, ![R, 1]⟩ : Shape).Idx → α))
    (h : Shape.Concatenates [(⟨2, ![R, 1]⟩ : Shape), ⟨2, ![R, 1]⟩, ⟨2, ![R, 1]⟩] ⟨2, ![R, 3]⟩ 1)
    (r : Fin R) (k : Fin 3) :
    concatenate ⟨2, ![R, 3]⟩ 1 [⟨⟨2, ![R, 1]⟩, f 0⟩, ⟨⟨2, ![R, 1]⟩, f 1⟩, ⟨⟨2, ![R, 1]⟩, f 2⟩] h (ix2 r k)
      = f k (ix2 r 0) := by
  show concatenate ⟨2, ![R, 3]⟩ 1
      (List.ofFn fun n : Fin 3 => (⟨⟨2, ![R, 1]⟩, f n⟩ : (s : Shape) × (s.Idx → α))) _ (ix2 r k) = _
  exact concatenate_ofFn_unit_apply (t := ⟨2, ![R, 3]⟩) (s₁ := ⟨2, ![R, 1]⟩) (1 : Fin 2) f _ rfl rfl
    (ix2 r k) k rfl (ix2 r 0)
    (fun b hb => by match b with | ⟨0, _⟩ => rfl | ⟨1, _⟩ => exact absurd rfl hb)

end Cert.Lib.Columns

end
-- ==== Proof.Weights.lean ====
/-
  The routing weights, as one function of the input array.

  Row r of the input carries a score h = x[r, 0] (its second entry is never read). With the threshold
  a = 0.3 and b = 0.7 (both as their single-precision values, the same two words wherever they occur),
  the three weights of the row are

      h ≥ a :  ( (h − a) / b ,      0      , (1 − h) / b )
      h < a :  (      0      , (a − h) / a ,    h / a    )

  so entry (r, k) of the result depends on x[r, 0] and on k alone. Subtraction, division and the
  comparison are the exact ones of the extended reals.
-/
import Idealize.ShloMosaic.PureOps.Ideal
import Idealize.ShloMosaic.Lib.ValueIdx

noncomputable section

namespace Cert.Weights

open Idealize.ShloMosaic Idealize.ShloMosaic.ValueIdx

/-- The threshold a: single-precision 0.3. -/
abbrev thr : Ideal .f32 := FloatOps.ofBits (F := Ideal) .f32 0x3E99999A#32
/-- The width b of the upper branch: single-precision 0.7. -/
abbrev span : Ideal .f32 := FloatOps.ofBits (F := Ideal) .f32 0x3F333333#32
/-- One. -/
abbrev unity : Ideal .f32 := FloatOps.ofBits (F := Ideal) .f32 0x3F800000#32
/-- Zero. -/
abbrev nought : Ideal .f32 := FloatOps.ofBits (F := Ideal) .f32 0x00000000#32

/-- Weight number k of a row whose score is h: the upper branch where h ≥ a, the lower branch elsewhere. -/
def weight (h : Ideal .f32) : Fin 3 → Ideal .f32
  | ⟨0, _⟩ => Scalar.select (FloatOps.cmpf .oge h thr) (FloatOps.divf (FloatOps.subf h thr) span) nought
  | ⟨1, _⟩ => Scalar.select (FloatOps.cmpf .oge h thr) nought (FloatOps.divf (FloatOps.subf thr h) thr)
  | ⟨2, _⟩ => Scalar.select (FloatOps.cmpf .oge h thr) (FloatOps.divf (FloatOps.subf unity h) span) (FloatOps.divf h thr)

/-- The whole table of weights: entry (r, k) is weight k of the score x[r, 0]. -/
def table (x : (⟨2, ![16777216, 2]⟩ : Shape).Idx → Ideal .f32) : (⟨2, ![16777216, 3]⟩ : Shape).Idx → Ideal .f32 :=
  fun i => weight (x (ix2 (i 0) 0)) (i 1)

/-- The table at an index given by its coordinates. -/
theorem table_apply (x : (⟨2, ![16777216, 2]⟩ : Shape).Idx → Ideal .f32) (r : Fin 16777216) (k : Fin 3) :
    table x (ix2 r k) = weight (x (ix2 r 0)) k := rfl

end Cert.Weights

end
-- ==== Proof.BlockWeights.lean ====
/-
  One block of the kernel's output is the weights of that block's rows.

  At a grid point the kernel loads an 8192×2 block of the input, takes its first column as the scores h of
  the block's 8192 rows, computes the three weight columns with the choice h ≥ a made column by column, and
  joins the three columns into the 8192×3 block it stores. The generated value leg already reads the stored
  block as one function of the loaded block: entry (p, k) is column k of the join at (p, 0). What is shown
  here is that this entry is weight k of the score in row p of the loaded block: the column k of the join is
  a reshape of a pointwise expression in h, and h at row p is the loaded block's entry (p, 0).
-/
import proofs.«146767_j43739946942519_2_alg».proof.Proof.Gen.KernelIdeal.Value
import proofs.«146767_j43739946942519_2_alg».proof.Proof.LibColumns
import proofs.«146767_j43739946942519_2_alg».proof.Proof.Weights

noncomputable section

namespace Cert.KernelIdeal.Block

open Idealize.ShloMosaic Idealize.ShloMosaic.ValueIdx
open Cert.KernelIdeal Cert.KernelIdeal.Gen Cert.KernelIdeal.Value Cert.Weights Cert.Lib.Columns

variable (x : Vec Ideal S8192x2 .f32)

/-- The block's score at row p — its first column, sliced out and reshaped to a vector — is the loaded
    block's entry (p, 0). -/
theorem score_apply (p : Fin 8192) :
    shapeCast S8192 (extractStridedSlice S8192x1 ![0, 0] x slices_S8192x2_o0_0_S8192x1) shapeCasts_S8192x1_S8192 (ix1 p)
      = x (ix2 p 0) :=
  (vector_of_column_apply _ shapeCasts_S8192x1_S8192 p).trans
    (extractStridedSlice_apply ![0, 0] x slices_S8192x2_o0_0_S8192x1 (ix2 p 0) (ix2 p 0) (fun a => match a with
      | ⟨0, _⟩ => by show p.val = 0 + p.val; omega
      | ⟨1, _⟩ => by show 0 = 0 + 0; rfl))

/-- Entry (p, k) of the stored block reads its column at (p, 0). -/
theorem column_index (p : Fin 8192) (k : Fin 3) : ix1_0 (ix2 p k) = ix2 p (0 : Fin 1) :=
  funext fun a => match a with
    | ⟨0, _⟩ => rfl
    | ⟨1, _⟩ => rfl

/-- Entry (p, k) of the block a grid point stores is weight k of the score in row p of the block it loaded. -/
theorem stored_apply (p : Fin 8192) (k : Fin 3) :
    E1 (F := Ideal) x (ix2 p k) = weight (x (ix2 p 0)) k := by
  match k with
  | ⟨0, _⟩ =>
    show Cat1_0 (F := Ideal) x ⟨0, _⟩ (ix1_0 (ix2 p _)) = _
    rw [column_index]
    refine (column_of_vector_apply _ shapeCasts_S8192_S8192x1 p 0).trans ?_
    rw [← score_apply x p]; rfl
  | ⟨1, _⟩ =>
    show Cat1_0 (F := Ideal) x ⟨1, _⟩ (ix1_0 (ix2 p _)) = _
    rw [column_index]
    refine (column_of_vector_apply _ shapeCasts_S8192_S8192x1 p 0).trans ?_
    rw [← score_apply x p]; rfl
  | ⟨2, _⟩ =>
    show Cat1_0 (F := Ideal) x ⟨2, _⟩ (ix1_0 (ix2 p _)) = _
    rw [column_index]
    refine (column_of_vector_apply _ shapeCasts_S8192_S8192x1 p 0).trans ?_
    rw [← score_apply x p]; rfl

end Cert.KernelIdeal.Block

end
-- ==== Proof.KernelTable.lean ====
/-
  The kernel's output array is the table of weights.

  The grid has 2048 points. Point t loads rows 8192·t … 8192·t + 8191 of the input (both columns) and stores
  the same rows of the output (all three columns), so the blocks are disjoint bands of rows and together
  they cover the array: row r belongs to the band of point r / 8192. Inside the band, entry (p, k) of the
  stored block is weight k of the score in row p of the loaded block, and that score is the input's
  entry (8192·t + p, 0). Hence what point t writes is exactly the band t of the table of weights of the
  whole input, and after all points the output array is that table.
-/
import proofs.«146767_j43739946942519_2_alg».proof.Proof.Gen.KernelIdeal.Value
import proofs.«146767_j43739946942519_2_alg».proof.Proof.BlockWeights
import proofs.«146767_j43739946942519_2_alg».proof.Proof.Weights

noncomputable section

namespace Cert.KernelIdeal.Table

open Idealize.ShloMosaic Idealize.ShloMosaic.TcCoe Idealize.ShloMosaic.ValueIdx Idealize.SL.Sem
open Cert.KernelIdeal Cert.KernelIdeal.Gen Cert.KernelIdeal.Value Cert.KernelIdeal.Block Cert.Weights
open Idealize.ShloMosaic.Pipeline (Dat)

variable (m : (ℓ : Loc nD τ sig) → Buf (Elt Ideal) ℓ) (ρ : Dev nD → PrngReg)

/-- A block starts at the origin of its staging buffer. -/
theorem origin : (![0, 0] : Fin 2 → Nat) = fun _ => 0 := funext fun a => by fin_cases a <;> rfl

/-- Where the blocks sit: at point t both windows are at block row t and block column 0 (decided over the
    2048 points). -/
theorem band : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- A grid point's number is below 2048. -/
theorem point_lt (t : Fin cfg0.N) : t.val < 2048 := lt_of_lt_of_eq t.isLt N_0

/-- Entry (p, z) of the input block at point t is the input's entry (8192·t + p, z). -/
theorem loaded_index (t : Fin cfg0.N) (p : Fin 8192) (z : Fin 2) :
    ((cfg0.win 0).blk t).view.emb (ix2 p z)
      = ix2 (⟨t.val * 8192 + p.val, by have := point_lt t; have := p.isLt; omega⟩ : Fin 16777216) z := by
  obtain ⟨e0, e1, -, -⟩ := band t
  funext a; apply Fin.ext
  match a with
  | ⟨0, _⟩ => show win0_0.index t (0 : Fin 2) * 8192 + 1 * p.val = t.val * 8192 + p.val; omega
  | ⟨1, _⟩ => show win0_0.index t (1 : Fin 2) * 2 + 1 * z.val = z.val; omega

/-- Entry (p, k) of the output block at point t is the output's entry (8192·t + p, k). -/
theorem stored_index (t : Fin cfg0.N) (p : Fin 8192) (k : Fin 3) :
    ((cfg0.win 1).blk t).view.emb (ix2 p k)
      = ix2 (⟨t.val * 8192 + p.val, by have := point_lt t; have := p.isLt; omega⟩ : Fin 16777216) k := by
  obtain ⟨-, -, e2, e3⟩ := band t
  funext a; apply Fin.ext
  match a with
  | ⟨0, _⟩ => show win0_1.index t (0 : Fin 2) * 8192 + 1 * p.val = t.val * 8192 + p.val; omega
  | ⟨1, _⟩ => show win0_1.index t (1 : Fin 2) * 3 + 1 * k.val = k.val; omega

/-- The block point t loads, read at (p, z), is the input array as the region finds it at (8192·t + p, z). -/
theorem loaded_apply (c : Dev nD) (t : Fin cfg0.N) (p : Fin 8192) (z : Fin 2) :
    iblk m c 0 t (ix2 p z)
      = V m c main_arg0 (ix2 (⟨t.val * 8192 + p.val, by have := point_lt t; have := p.isLt; omega⟩ : Fin 16777216) z) := by
  show V m c main_arg0 (((cfg0.win 0).blk t).view.emb (ix2 p z)) = _
  rw [loaded_index]

/-- What point t writes back is band t of the table of weights of the input array. -/
theorem written_eq (c : Dev nD) (t : Fin cfg0.N) :
    (dats m 0 c).flushed 1 t = ((cfg0.win 1).blk t).view.read (Elt Ideal) (table (V m c main_arg0)) := by
  rw [flushed1]
  unfold out0_1
  simp only [View.ld_unit_zero (S := S8192x2) origin]
  funext j
  obtain ⟨p, k, rfl⟩ : ∃ (p : Fin 8192) (k : Fin 3), j = ix2 p k := ⟨j 0, j 1, eq_ix2 j⟩
  show (View.canon [⟨r0_1, k0_pay1 (iblk m c 0 t)⟩] : Vec Ideal S8192x3 .f32) (ix2 p k)
    = table (V m c main_arg0) (((cfg0.win 1).blk t).view.emb (ix2 p k))
  refine (canon1_eq (F := Ideal) (iblk m c 0 t) (ix2 p k)).trans ?_
  refine (stored_apply (iblk m c 0 t) p k).trans ?_
  rw [stored_index, table_apply, loaded_apply]

/-- An index of the output array lies in point t's block iff each coordinate lies in the block's range. -/
theorem mem_block (t : Fin cfg0.N) (i : S16777216x3.Idx) :
    i ∈ ((cfg0.win 1).blk t).view.set ↔ ∀ a : Fin 2, win0_1.index t a * S8192x3.size a ≤ (i a).val
      ∧ (i a).val < win0_1.index t a * S8192x3.size a + S8192x3.size a := by
  show i ∈ ((View.whole main_v0).slice (win0_1.rect t)).set ↔ _
  rw [View.set_slice_whole, Rect.mem_set_unit]
  exact Iff.rfl

/-- Every index of the output array lies in the block of the point its row's band names. -/
theorem covered (i : S16777216x3.Idx) :
    ∃ t : Fin cfg0.N, (cfg0.win 1).flush t = true ∧ i ∈ ((cfg0.win 1).blk t).view.set := by
  have hi0 : (i 0).val < 16777216 := (i 0).isLt
  have hi1 : (i 1).val < 3 := (i 1).isLt
  obtain ⟨t, ht⟩ : ∃ t : Fin cfg0.N, t.val = (i 0).val / 8192 :=
    ⟨⟨(i 0).val / 8192, lt_of_lt_of_eq (by omega : (i 0).val / 8192 < 2048) N_0.symm⟩, rfl⟩
  obtain ⟨-, -, e2, e3⟩ := band t
  refine ⟨t, flush0_1 t, ?_⟩
  rw [mem_block]
  intro a
  match a with
  | ⟨0, _⟩ =>
    show win0_1.index t (0 : Fin 2) * 8192 ≤ (i 0).val ∧ (i 0).val < win0_1.index t (0 : Fin 2) * 8192 + 8192
    omega
  | ⟨1, _⟩ =>
    show win0_1.index t (1 : Fin 2) * 3 ≤ (i 1).val ∧ (i 1).val < win0_1.index t (1 : Fin 2) * 3 + 3
    omega

/-- After all the points the output array is the table of weights of the input array. -/
theorem final (c : Dev nD) :
    (dats m 0 c).arrAt 1 cfg0.N = table (m ((c : Thread nD τ).loc main_arg0)) :=
  (dats m 0 c).arrAt_eq_of_cover 1 (table (V m c main_arg0)) (fun t _ => written_eq m c t) covered

/-- Every weakly fair execution of the kernel's program ends with the result array at the table of weights of
    the argument array, and the argument array unchanged. -/
theorem run : θ_run defs (onTc (τ := τ) (main (F := Ideal))) ⟨m, fun _ => 0, ρ⟩ fun r => ∀ c : Dev nD,
      r.2.mem ((c : Thread nD τ).loc main_v0) = table (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (run_blocks m ρ)

end Cert.KernelIdeal.Table

end
-- ==== Proof.RefTable.lean ====
/-
  The reference computes the table of weights.

  The reference slices the score column h = x[:, 0] out of the input, forms the upper-branch row
  ((h − a)/b, 0, (1 − h)/b) and the lower-branch row (0, (a − h)/a, h/a) by joining three columns each,
  and chooses between the two rows with the comparison h ≥ a spread over the three columns. Read at
  entry (r, k), every one of these steps looks only at row r: the slice and the reshapes read x[r, 0],
  a join of three one-entry-wide columns reads column k at (r, 0), and the choice is made entry by
  entry. So entry (r, k) is weight k of the score x[r, 0], whichever branch the comparison takes.
-/
import proofs.«146767_j43739946942519_2_alg».proof.Proof.Gen.ReferenceIdeal.Read
import proofs.«146767_j43739946942519_2_alg».proof.Proof.LibColumns
import proofs.«146767_j43739946942519_2_alg».proof.Proof.Weights

noncomputable section

namespace Cert.ReferenceIdeal.Table

open Idealize.ShloMosaic Idealize.ShloMosaic.ValueIdx
open Cert.ReferenceIdeal Cert.ReferenceIdeal.Gen Cert.ReferenceIdeal.Read Cert.Weights Cert.Lib.Columns

variable (x : (⟨S16777216x2, .f32⟩ : BufTy).Contents (Elt Ideal))

/-! ## Layout steps read at a row -/

/-- A vector of one value per row, laid out as a column: entry (r, 0) of the column is entry r of the vector. -/
theorem column_apply {β : Type} (y : S16777216.Idx → β) (r : Fin 16777216) (z : Fin 1) :
    broadcastInDim S16777216x1 ![0] bcast_S16777216_S16777216x1_0 y (ix2 r z) = y (ix1 r) :=
  broadcastInDim_apply _ bcast_S16777216_S16777216x1_0 y (ix2 r z) (ix1 r) (fun a => match a with
    | ⟨0, _⟩ => by show r.val = if (16777216 : Nat) = 1 then 0 else r.val; rw [if_neg (by decide)])

/-- A column spread over three columns: entry (r, k) of the result is entry (r, 0) of the column. -/
theorem spread_apply {β : Type} (y : S16777216x1.Idx → β) (r : Fin 16777216) (k : Fin 3) :
    broadcastInDim S16777216x3 ![0, 1] bcast_S16777216x1_S16777216x3_0_1 y (ix2 r k) = y (ix2 r 0) :=
  broadcastInDim_apply _ bcast_S16777216x1_S16777216x3_0_1 y (ix2 r k) (ix2 r 0) (fun a => match a with
    | ⟨0, _⟩ => by show r.val = if (16777216 : Nat) = 1 then 0 else r.val; rw [if_neg (by decide)]
    | ⟨1, _⟩ => by show 0 = if (1 : Nat) = 1 then 0 else k.val; rw [if_pos rfl])

/-- The score column read at row r is x[r, 0]: the slice keeps column 0 and the reshape keeps the row. -/
theorem score_apply (r : Fin 16777216) : val_main_v1 (F := Ideal) x (ix1 r) = x (ix2 r 0) := by
  rw [val_main_v1_apply, val_main_v0_apply]
  refine congrArg x (funext fun a => ?_)
  match a with
  | ⟨0, _⟩ => exact Fin.ext (Nat.div_one _)
  | ⟨1, _⟩ => rfl

/-! ## The six columns at row r -/

/-- The zero column of the upper branch. -/
theorem zero_upper_apply (r : Fin 16777216) : val_main_v12 (F := Ideal) (ix2 r 0) = nought := by
  refine (column_apply (val_main_v2 (F := Ideal)) r 0).trans ?_
  rw [val_main_v2_apply, val_main_cst_apply]

/-- The zero column of the lower branch. -/
theorem zero_lower_apply (r : Fin 16777216) : val_main_v21 (F := Ideal) (ix2 r 0) = nought := by
  refine (column_apply (val_main_v2 (F := Ideal)) r 0).trans ?_
  rw [val_main_v2_apply, val_main_cst_apply]

/-- (h − a) / b at row r. -/
theorem upper_first_apply (r : Fin 16777216) :
    val_main_v11 (F := Ideal) x (ix2 r 0) = FloatOps.divf (FloatOps.subf (x (ix2 r 0)) thr) span := by
  refine (column_apply (val_main_v6 (F := Ideal) x) r 0).trans ?_
  rw [val_main_v6_apply, val_main_v4_apply, score_apply, val_main_v3_apply, val_main_cst_0_apply,
    val_main_v5_apply, val_main_cst_1_apply] <;> rfl

/-- (1 − h) / b at row r. -/
theorem upper_last_apply (r : Fin 16777216) :
    val_main_v13 (F := Ideal) x (ix2 r 0) = FloatOps.divf (FloatOps.subf unity (x (ix2 r 0))) span := by
  refine (column_apply (val_main_v10 (F := Ideal) x) r 0).trans ?_
  rw [val_main_v10_apply, val_main_v8_apply, score_apply, val_main_v7_apply, val_main_cst_2_apply,
    val_main_v9_apply, val_main_cst_3_apply] <;> rfl

/-- (a − h) / a at row r. -/
theorem lower_middle_apply (r : Fin 16777216) :
    val_main_v22 (F := Ideal) x (ix2 r 0) = FloatOps.divf (FloatOps.subf thr (x (ix2 r 0))) thr := by
  refine (column_apply (val_main_v18 (F := Ideal) x) r 0).trans ?_
  rw [val_main_v18_apply, val_main_v16_apply, score_apply, val_main_v15_apply, val_main_cst_4_apply,
    val_main_v17_apply, val_main_cst_5_apply] <;> rfl

/-- h / a at row r. -/
theorem lower_last_apply (r : Fin 16777216) :
    val_main_v23 (F := Ideal) x (ix2 r 0) = FloatOps.divf (x (ix2 r 0)) thr := by
  refine (column_apply (val_main_v20 (F := Ideal) x) r 0).trans ?_
  rw [val_main_v20_apply, score_apply, val_main_v19_apply, val_main_cst_6_apply] <;> rfl

/-- The comparison h ≥ a, spread over the three columns, at entry (r, k). -/
theorem choice_apply (r : Fin 16777216) (k : Fin 3) :
    val_main_call0_v0 (F := Ideal) x (ix2 r k) = FloatOps.cmpf .oge (x (ix2 r 0)) thr := by
  refine (spread_apply (val_main_v27 (F := Ideal) x) r k).trans ?_
  refine (column_apply (val_main_v26 (F := Ideal) x) r 0).trans ?_
  rw [val_main_v26_apply, score_apply, val_main_v25_apply, val_main_cst_7_apply] <;> rfl

/-! ## The two joined rows -/

/-- The three columns of the upper-branch row. -/
def upperColumns : Fin 3 → S16777216x1.Idx → Ideal .f32
  | ⟨0, _⟩ => val_main_v11 (F := Ideal) x
  | ⟨1, _⟩ => val_main_v12 (F := Ideal)
  | ⟨2, _⟩ => val_main_v13 (F := Ideal) x

/-- The three columns of the lower-branch row. -/
def lowerColumns : Fin 3 → S16777216x1.Idx → Ideal .f32
  | ⟨0, _⟩ => val_main_v21 (F := Ideal)
  | ⟨1, _⟩ => val_main_v22 (F := Ideal) x
  | ⟨2, _⟩ => val_main_v23 (F := Ideal) x

/-- Entry (r, k) of the upper-branch row is entry (r, 0) of its column k. -/
theorem upper_apply (r : Fin 16777216) (k : Fin 3) :
    val_main_v14 (F := Ideal) x (ix2 r k) = upperColumns x k (ix2 r 0) :=
  join3_apply (upperColumns x) concatenates_S16777216x1_S16777216x1_S16777216x1_S16777216x3_d1 r k

/-- Entry (r, k) of the lower-branch row is entry (r, 0) of its column k. -/
theorem lower_apply (r : Fin 16777216) (k : Fin 3) :
    val_main_v24 (F := Ideal) x (ix2 r k) = lowerColumns x k (ix2 r 0) :=
  join3_apply (lowerColumns x) concatenates_S16777216x1_S16777216x1_S16777216x1_S16777216x3_d1 r k

/-! ## The reference's result is the table -/

/-- Entry by entry, the reference's last stage is the table of weights of the input. -/
theorem stage_eq_table : val_main_v28 (F := Ideal) x = table x := by
  funext i
  obtain ⟨r, k, rfl⟩ : ∃ (r : Fin 16777216) (k : Fin 3), i = ix2 r k := ⟨i 0, i 1, eq_ix2 i⟩
  rw [table_apply, val_main_v28_apply, choice_apply, upper_apply, lower_apply]
  match k with
  | ⟨0, _⟩ =>
    show Scalar.select _ (val_main_v11 (F := Ideal) x (ix2 r 0)) (val_main_v21 (F := Ideal) (ix2 r 0)) = _
    rw [upper_first_apply, zero_lower_apply]; rfl
  | ⟨1, _⟩ =>
    show Scalar.select _ (val_main_v12 (F := Ideal) (ix2 r 0)) (val_main_v22 (F := Ideal) x (ix2 r 0)) = _
    rw [zero_upper_apply, lower_middle_apply]; rfl
  | ⟨2, _⟩ =>
    show Scalar.select _ (val_main_v13 (F := Ideal) x (ix2 r 0)) (val_main_v23 (F := Ideal) x (ix2 r 0)) = _
    rw [upper_last_apply, lower_last_apply]; rfl

end Cert.ReferenceIdeal.Table

end
-- ==== Proof.lean ====
/-
  Piecewise-linear routing weights: the kernel and its reference compute the same table.

  The input is an array x of 16777216 rows and 2 columns; the result has 3 columns. Row r has the score
  h = x[r, 0], and with the threshold a = 0.3 and b = 0.7 (single-precision values) its three weights are
  ((h − a)/b, 0, (1 − h)/b) where h ≥ a and (0, (a − h)/a, h/a) elsewhere (Proof/Weights.lean).

  The kernel walks the rows in 2048 bands of 8192; in a band it makes the choice h ≥ a column by column and
  then joins the three columns (Proof/BlockWeights.lean: one band; Proof/KernelTable.lean: the bands tile
  the array). The reference joins the three columns of each branch first and then makes the choice entry by
  entry (Proof/RefTable.lean). Choosing and joining commute because entry (r, k) of a join of one-entry-wide
  columns is column k at row r (Proof/LibColumns.lean), so both results are the same function of x, index
  by index, with the same subtraction, division and comparison on the extended reals and the same constant
  words on both sides. No property of the input is used: the equality holds for every extended-real input,
  finite or not.

  The three programs' runs and unchanged arguments are the generated frames and the generated run of the
  reference; the kernel's idealization rewrote no operation, so there is nothing to preserve.
-/
import proofs.«146767_j43739946942519_2_alg».proof.Defs
import proofs.«146767_j43739946942519_2_alg».proof.Proof.Gen.Kernel
import proofs.«146767_j43739946942519_2_alg».proof.Proof.Gen.Kernel.Skeleton
import proofs.«146767_j43739946942519_2_alg».proof.Proof.Gen.Kernel.Launch
import proofs.«146767_j43739946942519_2_alg».proof.Proof.Gen.Kernel.Points
import proofs.«146767_j43739946942519_2_alg».proof.Proof.Gen.Kernel.Frame
import proofs.«146767_j43739946942519_2_alg».proof.Proof.Gen.KernelIdeal
import proofs.«146767_j43739946942519_2_alg».proof.Proof.Gen.KernelIdeal.Skeleton
import proofs.«146767_j43739946942519_2_alg».proof.Proof.Gen.KernelIdeal.Launch
import proofs.«146767_j43739946942519_2_alg».proof.Proof.Gen.KernelIdeal.Points
import proofs.«146767_j43739946942519_2_alg».proof.Proof.Gen.KernelIdeal.Frame
import proofs.«146767_j43739946942519_2_alg».proof.Proof.Gen.ReferenceIdeal
import proofs.«146767_j43739946942519_2_alg».proof.Proof.Gen.Pre_finite_inputs
import proofs.«146767_j43739946942519_2_alg».proof.Proof.Gen.KernelIdeal.Value
import proofs.«146767_j43739946942519_2_alg».proof.Proof.Gen.ReferenceIdeal.Run
import proofs.«146767_j43739946942519_2_alg».proof.Proof.Gen.ReferenceIdeal.Read
import proofs.«146767_j43739946942519_2_alg».proof.Proof.KernelTable
import proofs.«146767_j43739946942519_2_alg».proof.Proof.RefTable
import Idealize.ShloMosaic.Adequacy
import Idealize.ShloMosaic.Init

noncomputable section

namespace Cert.Proof

open Idealize.ShloMosaic Idealize.ShloMosaic.TcCoe Idealize.SL.Sem

/-- The kernel as printed runs to the end and leaves its argument as it was. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- So does the reference: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization changed no operation of the kernel. -/
theorem preserves : Cert.preserves_Kernel_KernelIdeal := trivial

/-- From memories that agree on the argument, the kernel ends with the table of weights of its argument
    (Proof/KernelTable.lean) and the reference with the table of weights of its own (Proof/RefTable.lean):
    one array. -/
theorem algebraic : Cert.algebraic_KernelIdeal_ReferenceIdeal := by
  intro m ρ m' ρ' _ hagree
  refine ⟨fun c => Cert.Weights.table (m ((c : Thread Cert.KernelIdeal.nD Cert.KernelIdeal.τ).loc Cert.KernelIdeal.main_arg0)),
    Cert.KernelIdeal.Table.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.ReferenceIdeal.Table.stage_eq_table, hagree c]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
